-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S100000 : Shape := ⟨1, ![100000]⟩
abbrev S50x128 : Shape := ⟨2, ![50, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x50 .f32) (main_arg1 : IVec S2x1600000 32) (main_arg2 : IVec S100000 32) (main_arg3 : FVec F S50x128 .f32) (main_arg4 : FVec F S128 .f32) (main_arg5 : FVec F S128x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S50x128 .f32 := Host.absf main_arg3
  let main_cst_0 : FVec F S_ .f32 := constant S_ .f32 0x7F800000#32
  let main_v5 : FVec F S50x128 .f32 := broadcastInDim S50x128 ![] bcast_S_S50x128 main_cst_0
  let main_v6 : IVec S50x128 1 := cmpf .olt main_v4 main_v5
  let main_c_1 : IVec S_ 1 := constantI S_ 1 1#1
  let main_v7 : IVec S_ 1 := (fun x v => Host.reduce IntOp.andi x v reducesTo_S50x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x50 : Shape := ⟨2, ![100000, 50]⟩
abbrev S2x1600000 : Shape := ⟨2, ![2, 1600000]⟩
abbrev S100000 : Shape := ⟨1, ![100000]⟩
abbrev S50x128 : Shape := ⟨2, ![50, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x50 : Shape := ⟨2, ![10000, 50]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 119
  | .vmem => 22
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S100000, .i32⟩
  | .hbm, ⟨3, _⟩ => ⟨S50x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x64, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x64, .f32⟩
  | .hbm, ⟨91, _⟩ => ⟨S1700000x1, .f32⟩
  | .hbm, ⟨92, _⟩ => ⟨S1700000x64, .f32⟩
  | .hbm, ⟨93, _⟩ => ⟨S1700000x64, .f32⟩
  | .hbm, ⟨94, _⟩ => ⟨S_, .f32⟩
  | .hbm, ⟨95, _⟩ => ⟨S100000x64, .f32⟩
  | .hbm, ⟨96, _⟩ => ⟨S1700000x1, .i32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S1024x64, .f32⟩
  | .hbm, ⟨101, _⟩ => ⟨S100000x1, .i32⟩
  | .hbm, ⟨102, _⟩ => ⟨S1024x64, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S1024, .f32⟩
  | .hbm, ⟨107, _⟩ => ⟨S100000x1, .i32⟩
  | .hbm, ⟨108, _⟩ => ⟨S1024, .f32⟩
  | .hbm, ⟨109, _⟩ => ⟨S_, .f32⟩
  | .hbm, ⟨110, _⟩ => ⟨S1024, .f32⟩
  | .hbm, ⟨111, _⟩ => ⟨S1024, .f32⟩
  | .hbm, ⟨112, _⟩ => ⟨S1024x1, .f32⟩
  | .hbm, ⟨113, _⟩ => ⟨S1024x64, .f32⟩
  | .hbm, ⟨114, _⟩ => ⟨S1024x64, .f32⟩
  | .hbm, ⟨115, _⟩ => ⟨S1024x2, .f32⟩
  | .hbm, ⟨116, _⟩ => ⟨S1x2, .f32⟩
  | .hbm, ⟨117, _⟩ => ⟨S1024x2, .f32⟩
  | .hbm, ⟨118, _⟩ => ⟨S1024x2, .f32⟩
  | .local _ .vmem, ⟨0, _⟩ => ⟨S10000x50, .f32⟩
  | .local _ .vmem, ⟨1, _⟩ => ⟨S10000x50, .f32⟩
  | .local _ .vmem, ⟨2, _⟩ => ⟨S50x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64, .f32⟩
  | .local _ .vmem, ⟨20, _⟩ => ⟨S10000x64, .f32⟩
  | .local _ .vmem, ⟨21, _⟩ => ⟨S10000x64, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x50_S10000x50_0_0 : ∀ a, (![0, 0] : Fin 2 → Nat) a + S10000x50.size a ≤ S10000x50.size a
  h_S10000x50 : 0 < S10000x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x50_S50x128_S10000x128_1_0_0_1_n_n_wf : DotDims.WF S10000x50 S50x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x2_S1024x2_1_0_0_1_n_n_wf : DotDims.WF S1024x64 S64x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x50.size a ≤ S100000x50.size a
  hwx0_0 : ∀ i : grid0.Coords, EltTy.bits .f32 = 32 ∨ (Rect.block (s := S100000x50) S10000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x128.size a ≤ S50x128.size a
  hwx0_1 : ∀ i : grid0.Coords, EltTy.bits .f32 = 32 ∨ (Rect.block (s := S50x128) S50x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x50_S50x128_S10000x128_1_0_0_1_n_n : DotDims S10000x50 S50x128 S10000x128 where
  lhsContracting := [1]
  rhsContracting := [0]
  lhsNonContracting := [0]
  rhsNonContracting := [1]
  lhsBatch := []
  rhsBatch := []
  wf := dot_S10000x50_S50x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

abbrev win0_0 : Pipeline.Window sig grid0 :=
  Pipeline.Window.ofSpec (Memref.whole main_arg0) S10000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S50x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S100000 : Shape := ⟨1, ![100000]⟩
abbrev S50x128 : Shape := ⟨2, ![50, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S100000x50, .f32⟩
  | 1 => ⟨S2x1600000, .i32⟩
  | 2 => ⟨S100000, .i32⟩
  | 3 => ⟨S50x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x1, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x64, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S1024x64, .f32⟩
  | 115 => ⟨S100000x1, .i32⟩
  | 116 => ⟨S1024x64, .f32⟩
  | 117 => ⟨S_, .f32⟩
  | 118 => ⟨S100000, .f32⟩
  | 119 => ⟨S_, .f32⟩
  | 120 => ⟨S1024, .f32⟩
  | 121 => ⟨S100000x1, .i32⟩
  | 122 => ⟨S1024, .f32⟩
  | 123 => ⟨S_, .f32⟩
  | 124 => ⟨S1024, .f32⟩
  | 125 => ⟨S1024, .f32⟩
  | 126 => ⟨S1024x1, .f32⟩
  | 127 => ⟨S1024x64, .f32⟩
  | _ => ⟨S100000x50, .f32⟩

abbrev hbmTy0_1 (i : Nat) : BufTy := match i % 128 with
  | 0 => ⟨S1024x64, .f32⟩
  | 1 => ⟨S1024x2, .f32⟩
  | 2 => ⟨S1x2, .f32⟩
  | 3 => ⟨S1024x2, .f32⟩
  | 4 => ⟨S1024x2, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x50_S50x128_S100000x128_1_0_0_1_n_n_wf : DotDims.WF S100000x50 S50x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x2_S1024x2_1_0_0_1_n_n_wf : DotDims.WF S1024x64 S64x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x50_S50x128_S100000x128_1_0_0_1_n_n : DotDims S100000x50 S50x128 S100000x128 where
  lhsContracting := [1]
  rhsContracting := [0]
  lhsNonContracting := [0]
  rhsNonContracting := [1]
  lhsBatch := []
  rhsBatch := []
  wf := dot_S100000x50_S50x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

class Facts : Prop extends Facts₀ where

variable [Facts]
-- ==== Proof.KernelRun.lean ====
/-
  The idealized kernel's run, with every buffer it leaves read back.

  @main is nine segments: five stretches of host operations around four pallas_call regions. The library's theorem
  for such a program runs the segments in order from the launch memory and ends with the thread holding every
  unscoped buffer at the last boundary's contents `W9`: the launch memory folded through each stretch's operations
  and, at each region, the region's arrays replaced by what its write-backs leave. Reading that last state against
  the final memory gives, for every core, every unscoped buffer of the final memory at `W9` — the result buffer
  among them, which is what a value claim needs beside the unchanged arguments.
-/
import proofs.«116855_j24567212933213_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each core's
    unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run, stated at the result buffer and the argument buffers. -/
theorem run_result : θ_run defs (onTc (τ := τ) (main (F := F))) ⟨m, fun _ => 0, ρ⟩ (fun r => ∀ c : Dev nD,
      r.2.mem ((c.tc : Thread nD τ).loc main_v87) = W9 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v87 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)
    (run_all m ρ)

end Cert.KernelIdeal.Final

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.HostLines.lean ====
/-
  The stretches of host operations between the regions, read at the buffers the next region or the result needs.

  The kernel's program and the reference apply the same host operations to the same kinds of values: the edge lists
  with the self loops appended, the symmetric degree normalisation, then per layer a gather of rows along the source
  list, the scaling by the edge weights, and the scatter-add along the target list; at the end the pooling by graph
  and the linear head. Each stretch is read here at the one buffer it produces for what follows, from ANY contents
  of the buffers it reads: if those hold the reference's stages, the produced buffer holds the reference's next
  stage — the two are the same operations applied to the same values, so nothing of a gather or a scatter is ever
  opened. A buffer that a stretch does not write keeps its contents across it.
-/
import proofs.«116855_j24567212933213_1_alg».proof.Proof.Gen.KernelIdeal.Launch
import proofs.«116855_j24567212933213_1_alg».proof.Proof.Gen.ReferenceIdeal.Read
import proofs.«116855_j24567212933213_1_alg».proof.Proof.LibWrittenRefs
import Idealize.ShloMosaic.Lib.StableHlo.Run

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable {F : FTy → Type} [FloatOps F]

/-! ## What each stretch writes, and what it therefore keeps -/

/-- The buffers stretch 0 writes, in order. -/
abbrev written0 : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
theorem writes0 : (hostOps0 (F := F)).map (fun op => op.writes)
    = written0.map (fun r => ({Proc.devRef (τ := τ) .tc r} : Finset (DevRef τ sig))) := rfl
/-- A buffer stretch 0 does not write holds after it what it held before. -/
theorem keep0 (V : Valuation τ sig (Elt F)) {r : Ref sig .tc} (hr : r ∉ written0) :
    StableHlo.after (hostOps0 (F := F)) V (Proc.devRef .tc r) = V (Proc.devRef .tc r) :=
  after_of_map_writes_eq writes0 V hr

/-- The buffers stretch 1 writes, in order. -/
abbrev written1 : List (Ref sig .tc) := [main_c_5, main_v30, main_v31, main_c_6, main_v32, main_v33, main_v34, main_v35, main_v36, main_v37, main_v38, main_v39, main_cst_7, main_v40, main_v41, main_v42]
theorem writes1 : (hostOps1 (F := F)).map (fun op => op.writes)
    = written1.map (fun r => ({Proc.devRef (τ := τ) .tc r} : Finset (DevRef τ sig))) := rfl
/-- A buffer stretch 1 does not write holds after it what it held before. -/
theorem keep1 (V : Valuation τ sig (Elt F)) {r : Ref sig .tc} (hr : r ∉ written1) :
    StableHlo.after (hostOps1 (F := F)) V (Proc.devRef .tc r) = V (Proc.devRef .tc r) :=
  after_of_map_writes_eq writes1 V hr

/-- The buffers stretch 2 writes, in order. -/
abbrev written2 : List (Ref sig .tc) := [main_c_8, main_v44, main_v45, main_c_9, main_v46, main_v47, main_v48, main_v49, main_v50, main_v51, main_v52, main_v53, main_cst_10, main_v54, main_v55, main_v56]
theorem writes2 : (hostOps2 (F := F)).map (fun op => op.writes)
    = written2.map (fun r => ({Proc.devRef (τ := τ) .tc r} : Finset (DevRef τ sig))) := rfl
/-- A buffer stretch 2 does not write holds after it what it held before. -/
theorem keep2 (V : Valuation τ sig (Elt F)) {r : Ref sig .tc} (hr : r ∉ written2) :
    StableHlo.after (hostOps2 (F := F)) V (Proc.devRef .tc r) = V (Proc.devRef .tc r) :=
  after_of_map_writes_eq writes2 V hr

/-- The buffers stretch 3 writes, in order. -/
abbrev written3 : List (Ref sig .tc) := [main_c_11, main_v58, main_v59, main_c_12, main_v60, main_v61, main_v62, main_v63, main_v64, main_v65, main_v66, main_v67, main_cst_13, main_v68, main_v69, main_v70]
theorem writes3 : (hostOps3 (F := F)).map (fun op => op.writes)
    = written3.map (fun r => ({Proc.devRef (τ := τ) .tc r} : Finset (DevRef τ sig))) := rfl
/-- A buffer stretch 3 does not write holds after it what it held before. -/
theorem keep3 (V : Valuation τ sig (Elt F)) {r : Ref sig .tc} (hr : r ∉ written3) :
    StableHlo.after (hostOps3 (F := F)) V (Proc.devRef .tc r) = V (Proc.devRef .tc r) :=
  after_of_map_writes_eq writes3 V hr

/-- The buffers stretch 4 writes, in order. -/
abbrev written4 : List (Ref sig .tc) := [main_cst_14, main_v72, main_v73, main_v74, main_cst_15, main_v75, main_cst_16, main_v76, main_v77, main_v78, main_cst_17, main_v79, main_v80, main_v81, main_v82, main_v83, main_v84, main_v85, main_v86, main_v87]
theorem writes4 : (hostOps4 (F := F)).map (fun op => op.writes)
    = written4.map (fun r => ({Proc.devRef (τ := τ) .tc r} : Finset (DevRef τ sig))) := rfl
/-- A buffer stretch 4 does not write holds after it what it held before. -/
theorem keep4 (V : Valuation τ sig (Elt F)) {r : Ref sig .tc} (hr : r ∉ written4) :
    StableHlo.after (hostOps4 (F := F)) V (Proc.devRef .tc r) = V (Proc.devRef .tc r) :=
  after_of_map_writes_eq writes4 V hr

/-! ## The first stretch: the edge lists and the normalisation, from the edge index -/

set_option maxHeartbeats 4000000 in
/-- The source list with the self loops appended. -/
theorem line0_src (V : Valuation τ sig (Elt F)) :
    StableHlo.after (hostOps0 (F := F)) V (Proc.devRef .tc main_v3) = Cert.ReferenceIdeal.Read.val_main_v3 (F := F) (V (Proc.devRef .tc main_arg1)) := by
  after_results_simp <;> rfl

set_option maxHeartbeats 4000000 in
/-- The target list with the self loops appended. -/
theorem line0_dst (V : Valuation τ sig (Elt F)) :
    StableHlo.after (hostOps0 (F := F)) V (Proc.devRef .tc main_v6) = Cert.ReferenceIdeal.Read.val_main_v6 (F := F) (V (Proc.devRef .tc main_arg1)) := by
  after_results_simp <;> rfl

set_option maxHeartbeats 4000000 in
/-- The edge weights: the product of the inverse square roots of the two end points' degrees. -/
theorem line0_norm (V : Valuation τ sig (Elt F)) :
    StableHlo.after (hostOps0 (F := F)) V (Proc.devRef .tc main_v28) = Cert.ReferenceIdeal.Read.val_main_v28 (F := F) (V (Proc.devRef .tc main_arg1)) := by
  after_results_simp <;> rfl

/-! ## The aggregations: gather along the source list, scale, scatter-add along the target list -/

set_option maxHeartbeats 4000000 in
/-- After the first product. -/
theorem line1 (V : Valuation τ sig (Elt F)) (x0 : (⟨Cert.ReferenceIdeal.S100000x50, .f32⟩ : BufTy).Contents (Elt F)) (x1 : (⟨Cert.ReferenceIdeal.S2x1600000, .i32⟩ : BufTy).Contents (Elt F)) (x3 : (⟨Cert.ReferenceIdeal.S50x128, .f32⟩ : BufTy).Contents (Elt F))
    (hh : V (Proc.devRef .tc main_v29) = Cert.ReferenceIdeal.Read.val_main_v29 (F := F) x0 x3)
    (hs : V (Proc.devRef .tc main_v3) = Cert.ReferenceIdeal.Read.val_main_v3 (F := F) x1) (hd : V (Proc.devRef .tc main_v6) = Cert.ReferenceIdeal.Read.val_main_v6 (F := F) x1)
    (hn : V (Proc.devRef .tc main_v28) = Cert.ReferenceIdeal.Read.val_main_v28 (F := F) x1) :
    StableHlo.after (hostOps1 (F := F)) V (Proc.devRef .tc main_v42) = Cert.ReferenceIdeal.Read.val_main_v42 (F := F) x0 x1 x3 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', hh, hs, hd, hn]
  rfl

set_option maxHeartbeats 4000000 in
/-- After the second product. -/
theorem line2 (V : Valuation τ sig (Elt F)) (x0 : (⟨Cert.ReferenceIdeal.S100000x50, .f32⟩ : BufTy).Contents (Elt F)) (x1 : (⟨Cert.ReferenceIdeal.S2x1600000, .i32⟩ : BufTy).Contents (Elt F)) (x3 : (⟨Cert.ReferenceIdeal.S50x128, .f32⟩ : BufTy).Contents (Elt F)) (x4 : (⟨Cert.ReferenceIdeal.S128, .f32⟩ : BufTy).Contents (Elt F)) (x5 : (⟨Cert.ReferenceIdeal.S128x128, .f32⟩ : BufTy).Contents (Elt F))
    (hh : V (Proc.devRef .tc main_v43) = Cert.ReferenceIdeal.Read.val_main_v47 (F := F) x0 x1 x3 x4 x5)
    (hs : V (Proc.devRef .tc main_v3) = Cert.ReferenceIdeal.Read.val_main_v3 (F := F) x1) (hd : V (Proc.devRef .tc main_v6) = Cert.ReferenceIdeal.Read.val_main_v6 (F := F) x1)
    (hn : V (Proc.devRef .tc main_v28) = Cert.ReferenceIdeal.Read.val_main_v28 (F := F) x1) :
    StableHlo.after (hostOps2 (F := F)) V (Proc.devRef .tc main_v56) = Cert.ReferenceIdeal.Read.val_main_v60 (F := F) x0 x1 x3 x4 x5 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', hh, hs, hd, hn]
  rfl

set_option maxHeartbeats 4000000 in
/-- After the third product. -/
theorem line3 (V : Valuation τ sig (Elt F)) (x0 : (⟨Cert.ReferenceIdeal.S100000x50, .f32⟩ : BufTy).Contents (Elt F)) (x1 : (⟨Cert.ReferenceIdeal.S2x1600000, .i32⟩ : BufTy).Contents (Elt F)) (x3 : (⟨Cert.ReferenceIdeal.S50x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x64, .f32⟩ : BufTy).Contents (Elt F))
    (hh : V (Proc.devRef .tc main_v57) = Cert.ReferenceIdeal.Read.val_main_v65 (F := F) x0 x1 x3 x4 x5 x6 x7)
    (hs : V (Proc.devRef .tc main_v3) = Cert.ReferenceIdeal.Read.val_main_v3 (F := F) x1) (hd : V (Proc.devRef .tc main_v6) = Cert.ReferenceIdeal.Read.val_main_v6 (F := F) x1)
    (hn : V (Proc.devRef .tc main_v28) = Cert.ReferenceIdeal.Read.val_main_v28 (F := F) x1) :
    StableHlo.after (hostOps3 (F := F)) V (Proc.devRef .tc main_v70) = Cert.ReferenceIdeal.Read.val_main_v78 (F := F) x0 x1 x3 x4 x5 x6 x7 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', hh, hs, hd, hn]
  rfl

/-! ## The last stretch: the mean over each graph's nodes and the linear head -/

set_option maxHeartbeats 4000000 in
/-- The result, from the last region's output, the graph ids, the head's weight and bias. -/
theorem line4 (V : Valuation τ sig (Elt F)) (x0 : (⟨Cert.ReferenceIdeal.S100000x50, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S50x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) (x9 : (⟨Cert.ReferenceIdeal.S64x2, .f32⟩ : BufTy).Contents (Elt F)) (x10 : (⟨Cert.ReferenceIdeal.S2, .f32⟩ : BufTy).Contents (Elt F))
    (hh : V (Proc.devRef .tc main_v71) = Cert.ReferenceIdeal.Read.val_main_v81 (F := F) x0 x1 x3 x4 x5 x6 x7 x8)
    (h2 : V (Proc.devRef .tc main_arg2) = x2) (h9 : V (Proc.devRef .tc main_arg9) = x9) (h10 : V (Proc.devRef .tc main_arg10) = x10) :
    StableHlo.after (hostOps4 (F := F)) V (Proc.devRef .tc main_v87) = Cert.ReferenceIdeal.Read.val_main_v97 (F := F) x0 x1 x2 x3 x4 x5 x6 x7 x8 x9 x10 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', hh, h2, h9, h10]
  rfl

end Cert.KernelIdeal.HostLines

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«116855_j24567212933213_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Layer1.lean ====
/-
  The first layer's product, x · W1, tiled over rows.

  The region has ten grid points. Point t multiplies rows 10000·t … 10000·t + 9999 of x (its block of the
  100000 × 50 array) by the whole 50 × 128 weight, from a zero accumulator, and writes the 10000 × 128 result back as
  block t of the output. Entry (p, q) of that block is ∑ₖ x(10000·t + p, k) · W1(k, q): exactly entry
  (10000·t + p, q) of the one product x · W1 the reference computes, the same sum term by term (the change of float
  format in front of the product is the identity on the extended reals). The ten blocks tile the output, row r lying
  in block r / 10000, so after the region the output array IS the reference's product of the arrays the region
  found.
-/
import proofs.«116855_j24567212933213_1_alg».proof.Proof.Gen.KernelIdeal.Frame
import proofs.«116855_j24567212933213_1_alg».proof.Proof.Gen.ReferenceIdeal.Read
import proofs.«116855_j24567212933213_1_alg».proof.Proof.LibRowBlock
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl

/-- The block indices at point t: the x block and the output block are the t-th along the rows, the weight's block is
    the whole weight. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of a point's product, when row p of its x block is row P of x and its weight block is the weight, is
    entry (P, q) of the whole product. -/
theorem product_entry (x0 : Vec Ideal S10000x50 .f32) (x1 : Vec Ideal S50x128 .f32)
    (A : Cert.ReferenceIdeal.S100000x50.Idx → EReal) (W : Cert.ReferenceIdeal.S50x128.Idx → EReal)
    (P : Fin 100000) (p : Fin 10000) (q : Fin 128)
    (hx : ∀ k : Fin 50, x0 (ix2 p k) = A (ix2 P k)) (hw : ∀ k : Fin 50, x1 (ix2 k q) = W (ix2 k q)) :
    k0_pay1 x0 x1 (ix2 p q) = Cert.ReferenceIdeal.Read.val_main_v29 (F := Ideal) A W (ix2 P q) :=
  Cert.Lib.RowBlock.matmul_eq_dotGeneral none none .single A W _ _ P p q hx hw

variable (V : (c : Dev nD) → (b : Ref sig .tc) → Buf (Elt Ideal) ((c : Thread nD τ).loc b)) (c : Dev nD)

/-- What point t writes back is block t of the whole product of the arrays the region found. -/
theorem writeback (t : Fin cfg0.N) :
    (dat0 V c).flushed 2 t = ((cfg0.win 2).blk t).view.read (Elt Ideal)
      (Cert.ReferenceIdeal.Read.val_main_v29 (F := Ideal) (V c main_arg0) (V c main_arg3)) := by
  show (cfg0.win 2).cut (grid0.coords t) ((dat0 V c).after 2 t) = _
  rw [after0_2]
  unfold out0_2
  rw [View.canon_unit_zero origin2]
  simp only [View.ld_unit_zero (S := S10000x50) origin2, View.ld_unit_zero (S := S50x128) origin2]
  funext j
  obtain ⟨e00, e01, e10, e11, e20, e21⟩ := blockIndex t
  have ht : t.val < 10 := lt_of_lt_of_eq t.isLt N_0
  obtain ⟨p, q, rfl⟩ : ∃ (p : Fin 10000) (q : Fin 128), j = ix2 p q := ⟨j 0, j 1, eq_ix2 j⟩
  show k0_pay1 (iblk0 V c 0 t) (iblk0 V c 1 t) (ix2 p q)
    = Cert.ReferenceIdeal.Read.val_main_v29 (F := Ideal) (V c main_arg0) (V c main_arg3) (((cfg0.win 2).blk t).view.emb (ix2 p q))
  have hP : t.val * 10000 + p.val < 100000 := by have := p.isLt; omega
  have hemb : ((cfg0.win 2).blk t).view.emb (ix2 p q) = ix2 (⟨t.val * 10000 + p.val, hP⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb]
  refine product_entry (iblk0 V c 0 t) (iblk0 V c 1 t) (V c main_arg0) (V c main_arg3) ⟨t.val * 10000 + p.val, hP⟩ p q (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 50 + 1 * k.val = k.val; omega
  · show V c main_arg3 (((cfg0.win 1).blk t).view.emb (ix2 k q)) = _
    refine congrArg (V c main_arg3) ?_
    funext a; apply Fin.ext
    match a with
    | ⟨0, _⟩ => show win0_1.index t (0 : Fin 2) * 50 + 1 * k.val = k.val; omega
    | ⟨1, _⟩ => show win0_1.index t (1 : Fin 2) * 128 + 1 * q.val = q.val; omega

/-- An index of the output lies in point t's block iff each coordinate lies in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- Row r of the output lies in the block of point r / 10000. -/
theorem tiled (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := lt_of_lt_of_eq (by omega : (i 0).val / 10000 < 10) N_0.symm
  refine ⟨⟨(i 0).val / 10000, hN⟩, flush0_2 _, ?_⟩
  obtain ⟨e00, e01, e10, e11, e20, e21⟩ := blockIndex ⟨(i 0).val / 10000, hN⟩
  rw [mem_block]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; simp only [] at e20; omega
  | ⟨1, _⟩ => show win0_2.index ⟨(i 0).val / 10000, hN⟩ (1 : Fin 2) * 128 ≤ (i 1).val ∧ (i 1).val < win0_2.index ⟨(i 0).val / 10000, hN⟩ (1 : Fin 2) * 128 + 128; omega

/-- After the region the output array is the whole product of the arrays the region found. -/
theorem array : (dat0 V c).arrAt 2 cfg0.N = Cert.ReferenceIdeal.Read.val_main_v29 (F := Ideal) (V c main_arg0) (V c main_arg3) :=
  (dat0 V c).arrAt_eq_of_cover 2 _ (fun t _ => writeback V c t) tiled

end Cert.KernelIdeal.Layer1

end
-- ==== Proof.Layer2.lean ====
/-
  The second layer's dense part, relu(a + b1) · W2, tiled over rows.

  Point t of the region's ten takes rows 10000·t … 10000·t + 9999 of the aggregated array a, adds the bias to every
  row, takes the maximum with zero entry by entry, and multiplies the result by the whole 128 × 128 weight from a zero
  accumulator. Entry (p, q) of what it writes back is ∑ₖ max(a(10000·t + p, k) + b1(k), 0) · W2(k, q): entry
  (10000·t + p, q) of the product the reference forms of relu(a + b1), with the bias broadcast over all 100000 rows,
  and W2 — the same sum term by term. The blocks tile the output, so the output array is that product.
-/
import proofs.«116855_j24567212933213_1_alg».proof.Proof.Gen.KernelIdeal.Frame
import proofs.«116855_j24567212933213_1_alg».proof.Proof.Gen.ReferenceIdeal.Read
import proofs.«116855_j24567212933213_1_alg».proof.Proof.LibRowBlock
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a; rfl

/-- The layer's dense part on whole arrays, as the reference spells it: the bias broadcast to a row and then over the
    rows, added, the maximum with the zero array, the product with the weight. -/
def dense (a : FVec Ideal Cert.ReferenceIdeal.S100000x128 .f32) (b : FVec Ideal Cert.ReferenceIdeal.S128 .f32)
    (w : FVec Ideal Cert.ReferenceIdeal.S128x128 .f32) : FVec Ideal Cert.ReferenceIdeal.S100000x128 .f32 :=
  Host.dotGeneral (F := Ideal) Cert.ReferenceIdeal.dot_S100000x128_S128x128_S100000x128_1_0_0_1_n_n none
    (maximumf (addf a (Cert.ReferenceIdeal.Read.val_main_v44 (F := Ideal) b)) (Cert.ReferenceIdeal.Read.val_main_call0_v0 (F := Ideal))) w

/-- The reference's stage after this product is the dense part of its stage after the preceding aggregation. -/
theorem stage_eq (x0 x1 x3 x4 x5) :
    Cert.ReferenceIdeal.Read.val_main_v47 (F := Ideal) x0 x1 x3 x4 x5
      = dense (Cert.ReferenceIdeal.Read.val_main_v42 (F := Ideal) x0 x1 x3) x4 x5 := rfl

/-- The bias broadcast over the rows, read at (P, k), is the bias at k. -/
theorem bias_at (b : FVec Ideal Cert.ReferenceIdeal.S128 .f32) (P : Fin 100000) (k : Fin 128) :
    Cert.ReferenceIdeal.Read.val_main_v44 (F := Ideal) b (ix2 P k) = b (ix1 k) := by
  rw [Cert.ReferenceIdeal.Read.val_main_v44_apply, Cert.ReferenceIdeal.Read.val_main_v43_apply]
  exact congrArg b (funext fun a => match a with | ⟨0, _⟩ => rfl)

/-- The zero array read at any entry is the zero word. -/
theorem zero_at (i : Cert.ReferenceIdeal.S100000x128.Idx) :
    Cert.ReferenceIdeal.Read.val_main_call0_v0 (F := Ideal) i = Ideal.ofBits .f32 0x00000000#32 := by
  rw [Cert.ReferenceIdeal.Read.val_main_call0_v0_apply]; rfl

/-- Entry (p, k) of a point's activated block, when row p of its block of a is row P of a and its bias block is the
    bias, is entry (P, k) of the activated whole array. -/
theorem activation_entry (x0 : FVec Ideal S10000x128 .f32) (x1 : FVec Ideal S128 .f32)
    (a : FVec Ideal Cert.ReferenceIdeal.S100000x128 .f32) (b : FVec Ideal Cert.ReferenceIdeal.S128 .f32)
    (P : Fin 100000) (p : Fin 10000) (k : Fin 128)
    (hx : x0 (ix2 p k) = a (ix2 P k)) (hb : x1 (ix1 k) = b (ix1 k)) :
    (truncf .bf16 (maximumf (addf (shapeCast S10000x128 x0 shapeCasts_S10000x128_S10000x128)
        (broadcastTo S10000x128 (shapeCast S1x128 x1 shapeCasts_S128_S1x128) broadcasts_S1x128_S10000x128))
      (broadcast S10000x128 (Scalar.ofBits (F := Ideal) .f32 0x00000000#32))) bitsLt_bf16_f32 : FVec Ideal S10000x128 .bf16) (ix2 p k)
    = maximumf (addf a (Cert.ReferenceIdeal.Read.val_main_v44 (F := Ideal) b)) (Cert.ReferenceIdeal.Read.val_main_call0_v0 (F := Ideal)) (ix2 P k) := by
  rw [truncf_apply, maximumf_apply, maximumf_apply, addf_apply, addf_apply, broadcast_apply, bias_at, zero_at, shapeCast_self,
    broadcastTo_1b_ab_apply, shapeCast_a_1a_apply, hx, hb]
  rfl

/-- Entry (p, q) of what a point computes is entry (P, q) of the dense part on the whole arrays. -/
theorem product_entry (x0 : FVec Ideal S10000x128 .f32) (x1 : FVec Ideal S128 .f32) (x2 : FVec Ideal S128x128 .f32)
    (a : FVec Ideal Cert.ReferenceIdeal.S100000x128 .f32) (b : FVec Ideal Cert.ReferenceIdeal.S128 .f32)
    (w : FVec Ideal Cert.ReferenceIdeal.S128x128 .f32)
    (P : Fin 100000) (p : Fin 10000) (q : Fin 128)
    (hx : ∀ k : Fin 128, x0 (ix2 p k) = a (ix2 P k)) (hb : ∀ k : Fin 128, x1 (ix1 k) = b (ix1 k))
    (hw : ∀ k : Fin 128, x2 (ix2 k q) = w (ix2 k q)) :
    k1_pay1 x0 x1 x2 (ix2 p q) = dense a b w (ix2 P q) :=
  Cert.Lib.RowBlock.matmul_eq_dotGeneral none none .single _ w _ _ P p q
    (fun k => activation_entry x0 x1 a b P p k (hx k) (hb k)) hw

/-- The block indices at point t. -/
theorem blockIndex : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b)) (c : Dev nD)

/-- What point t writes back is block t of the dense part of the arrays the region found. -/
theorem writeback (t : Fin cfg1.N) :
    (dat1 V c).flushed 3 t = ((cfg1.win 3).blk t).view.read (Elt Ideal)
      (dense (V c main_v42) (V c main_arg4) (V c main_arg5)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S128) origin1, View.ld_unit_zero (S := S128x128) origin2]
  funext j
  obtain ⟨e00, e01, e10, e20, e21, e30, e31⟩ := blockIndex t
  have ht : t.val < 10 := lt_of_lt_of_eq t.isLt N_1
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (ix2 p q)
    = dense (V c main_v42) (V c main_arg4) (V c main_arg5) (((cfg1.win 3).blk t).view.emb (ix2 p q))
  have hP : t.val * 10000 + p.val < 100000 := by have := p.isLt; omega
  have hemb : ((cfg1.win 3).blk t).view.emb (ix2 p q) = ix2 (⟨t.val * 10000 + p.val, hP⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  rw [hemb]
  refine product_entry (iblk1 V c 0 t) (iblk1 V c 1 t) (iblk1 V c 2 t) (V c main_v42) (V c main_arg4) (V c main_arg5)
    ⟨t.val * 10000 + p.val, hP⟩ p q (fun k => ?_) (fun k => ?_) (fun k => ?_)
  · show V c main_v42 (((cfg1.win 0).blk t).view.emb (ix2 p k)) = _
    refine congrArg (V c main_v42) ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  · show V c main_arg4 (((cfg1.win 1).blk t).view.emb (ix1 k)) = _
    refine congrArg (V c main_arg4) ?_
    funext a; apply Fin.ext
    match a with
    | ⟨0, _⟩ => show win1_1.index t (0 : Fin 1) * 128 + 1 * k.val = k.val; omega
  · show V c main_arg5 (((cfg1.win 2).blk t).view.emb (ix2 k q)) = _
    refine congrArg (V c main_arg5) ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega

/-- An index of the output lies in point t's block iff each coordinate lies in the block's range on its axis. -/
theorem mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v43).slice (win1_3.rect t)).set ↔ _
  rw [View.set_slice_whole, Rect.mem_set_unit]
  exact Iff.rfl

/-- Row r of the output lies in the block of point r / 10000. -/
theorem tiled (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < cfg1.N := lt_of_lt_of_eq (by omega : (i 0).val / 10000 < 10) N_1.symm
  refine ⟨⟨(i 0).val / 10000, hN⟩, flush1_3 _, ?_⟩
  obtain ⟨e00, e01, e10, e20, e21, e30, e31⟩ := blockIndex ⟨(i 0).val / 10000, hN⟩
  rw [mem_block]
  intro a
  match a with
  | ⟨0, _⟩ => show win1_3.index ⟨(i 0).val / 10000, hN⟩ (0 : Fin 2) * 10000 ≤ (i 0).val ∧ (i 0).val < win1_3.index ⟨(i 0).val / 10000, hN⟩ (0 : Fin 2) * 10000 + 10000; simp only [] at e30; omega
  | ⟨1, _⟩ => show win1_3.index ⟨(i 0).val / 10000, hN⟩ (1 : Fin 2) * 128 ≤ (i 1).val ∧ (i 1).val < win1_3.index ⟨(i 0).val / 10000, hN⟩ (1 : Fin 2) * 128 + 128; omega

/-- After the region the output array is the dense part of the arrays the region found. -/
theorem array : (dat1 V c).arrAt 3 cfg1.N = dense (V c main_v42) (V c main_arg4) (V c main_arg5) :=
  (dat1 V c).arrAt_eq_of_cover 3 _ (fun t _ => writeback V c t) tiled

end Cert.KernelIdeal.Layer2

end
-- ==== Proof.Layer3.lean ====
/-
  The third layer's dense part, relu(a + b2) · W3, tiled over rows.

  Point t of the region's ten takes rows 10000·t … 10000·t + 9999 of the aggregated array a, adds the bias to every
  row, takes the maximum with zero entry by entry, and multiplies the result by the whole 128 × 64 weight from a zero
  accumulator. Entry (p, q) of what it writes back is ∑ₖ max(a(10000·t + p, k) + b2(k), 0) · W3(k, q): entry
  (10000·t + p, q) of the product the reference forms of relu(a + b2), with the bias broadcast over all 100000 rows,
  and W3 — the same sum term by term. The blocks tile the output, so the output array is that product.
-/
import proofs.«116855_j24567212933213_1_alg».proof.Proof.Gen.KernelIdeal.Frame
import proofs.«116855_j24567212933213_1_alg».proof.Proof.Gen.ReferenceIdeal.Read
import proofs.«116855_j24567212933213_1_alg».proof.Proof.LibRowBlock
import Idealize.ShloMosaic.Lib.Pipeline.Value
import Idealize.ShloMosaic.Lib.ValueIdx
import Idealize.ShloMosaic.Lib.ValueLayout

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a; rfl

/-- The layer's dense part on whole arrays, as the reference spells it: the bias broadcast to a row and then over the
    rows, added, the maximum with the zero array, the product with the weight. -/
def dense (a : FVec Ideal Cert.ReferenceIdeal.S100000x128 .f32) (b : FVec Ideal Cert.ReferenceIdeal.S128 .f32)
    (w : FVec Ideal Cert.ReferenceIdeal.S128x64 .f32) : FVec Ideal Cert.ReferenceIdeal.S100000x64 .f32 :=
  Host.dotGeneral (F := Ideal) Cert.ReferenceIdeal.dot_S100000x128_S128x64_S100000x64_1_0_0_1_n_n none
    (maximumf (addf a (Cert.ReferenceIdeal.Read.val_main_v62 (F := Ideal) b)) (Cert.ReferenceIdeal.Read.val_main_call1_v0 (F := Ideal))) w

/-- The reference's stage after this product is the dense part of its stage after the preceding aggregation. -/
theorem stage_eq (x0 x1 x3 x4 x5 x6 x7) :
    Cert.ReferenceIdeal.Read.val_main_v65 (F := Ideal) x0 x1 x3 x4 x5 x6 x7
      = dense (Cert.ReferenceIdeal.Read.val_main_v60 (F := Ideal) x0 x1 x3 x4 x5) x6 x7 := rfl

/-- The bias broadcast over the rows, read at (P, k), is the bias at k. -/
theorem bias_at (b : FVec Ideal Cert.ReferenceIdeal.S128 .f32) (P : Fin 100000) (k : Fin 128) :
    Cert.ReferenceIdeal.Read.val_main_v62 (F := Ideal) b (ix2 P k) = b (ix1 k) := by
  rw [Cert.ReferenceIdeal.Read.val_main_v62_apply, Cert.ReferenceIdeal.Read.val_main_v61_apply]
  exact congrArg b (funext fun a => match a with | ⟨0, _⟩ => rfl)

/-- The zero array read at any entry is the zero word. -/
theorem zero_at (i : Cert.ReferenceIdeal.S100000x128.Idx) :
    Cert.ReferenceIdeal.Read.val_main_call1_v0 (F := Ideal) i = Ideal.ofBits .f32 0x00000000#32 := by
  rw [Cert.ReferenceIdeal.Read.val_main_call1_v0_apply]; rfl

/-- Entry (p, k) of a point's activated block, when row p of its block of a is row P of a and its bias block is the
    bias, is entry (P, k) of the activated whole array. -/
theorem activation_entry (x0 : FVec Ideal S10000x128 .f32) (x1 : FVec Ideal S128 .f32)
    (a : FVec Ideal Cert.ReferenceIdeal.S100000x128 .f32) (b : FVec Ideal Cert.ReferenceIdeal.S128 .f32)
    (P : Fin 100000) (p : Fin 10000) (k : Fin 128)
    (hx : x0 (ix2 p k) = a (ix2 P k)) (hb : x1 (ix1 k) = b (ix1 k)) :
    (truncf .bf16 (maximumf (addf (shapeCast S10000x128 x0 shapeCasts_S10000x128_S10000x128)
        (broadcastTo S10000x128 (shapeCast S1x128 x1 shapeCasts_S128_S1x128) broadcasts_S1x128_S10000x128))
      (broadcast S10000x128 (Scalar.ofBits (F := Ideal) .f32 0x00000000#32))) bitsLt_bf16_f32 : FVec Ideal S10000x128 .bf16) (ix2 p k)
    = maximumf (addf a (Cert.ReferenceIdeal.Read.val_main_v62 (F := Ideal) b)) (Cert.ReferenceIdeal.Read.val_main_call1_v0 (F := Ideal)) (ix2 P k) := by
  rw [truncf_apply, maximumf_apply, maximumf_apply, addf_apply, addf_apply, broadcast_apply, bias_at, zero_at, shapeCast_self,
    broadcastTo_1b_ab_apply, shapeCast_a_1a_apply, hx, hb]
  rfl

/-- Entry (p, q) of what a point computes is entry (P, q) of the dense part on the whole arrays. -/
theorem product_entry (x0 : FVec Ideal S10000x128 .f32) (x1 : FVec Ideal S128 .f32) (x2 : FVec Ideal S128x64 .f32)
    (a : FVec Ideal Cert.ReferenceIdeal.S100000x128 .f32) (b : FVec Ideal Cert.ReferenceIdeal.S128 .f32)
    (w : FVec Ideal Cert.ReferenceIdeal.S128x64 .f32)
    (P : Fin 100000) (p : Fin 10000) (q : Fin 64)
    (hx : ∀ k : Fin 128, x0 (ix2 p k) = a (ix2 P k)) (hb : ∀ k : Fin 128, x1 (ix1 k) = b (ix1 k))
    (hw : ∀ k : Fin 128, x2 (ix2 k q) = w (ix2 k q)) :
    k2_pay1 x0 x1 x2 (ix2 p q) = dense a b w (ix2 P q) :=
  Cert.Lib.RowBlock.matmul_eq_dotGeneral none none .single _ w _ _ P p q
    (fun k => activation_entry x0 x1 a b P p k (hx k) (hb k)) hw

/-- The block indices at point t. -/
theorem blockIndex : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- What point t writes back is block t of the dense part of the arrays the region found. -/
theorem writeback (t : Fin cfg2.N) :
    (dat2 V c).flushed 3 t = ((cfg2.win 3).blk t).view.read (Elt Ideal)
      (dense (V c main_v56) (V c main_arg6) (V c main_arg7)) := by
  show (cfg2.win 3).cut (grid2.coords t) ((dat2 V c).after 3 t) = _
  rw [after2_3]
  unfold out2_3
  rw [View.canon_unit_zero origin2]
  simp only [View.ld_unit_zero (S := S10000x128) origin2, View.ld_unit_zero (S := S128) origin1, View.ld_unit_zero (S := S128x64) origin2]
  funext j
  obtain ⟨e00, e01, e10, e20, e21, e30, e31⟩ := blockIndex t
  have ht : t.val < 10 := lt_of_lt_of_eq t.isLt N_2
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
    = dense (V c main_v56) (V c main_arg6) (V c main_arg7) (((cfg2.win 3).blk t).view.emb (ix2 p q))
  have hP : t.val * 10000 + p.val < 100000 := by have := p.isLt; omega
  have hemb : ((cfg2.win 3).blk t).view.emb (ix2 p q) = ix2 (⟨t.val * 10000 + p.val, hP⟩ : Fin 100000) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  rw [hemb]
  refine product_entry (iblk2 V c 0 t) (iblk2 V c 1 t) (iblk2 V c 2 t) (V c main_v56) (V c main_arg6) (V c main_arg7)
    ⟨t.val * 10000 + p.val, hP⟩ p q (fun k => ?_) (fun k => ?_) (fun k => ?_)
  · show V c main_v56 (((cfg2.win 0).blk t).view.emb (ix2 p k)) = _
    refine congrArg (V c main_v56) ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  · show V c main_arg6 (((cfg2.win 1).blk t).view.emb (ix1 k)) = _
    refine congrArg (V c main_arg6) ?_
    funext a; apply Fin.ext
    match a with
    | ⟨0, _⟩ => show win2_1.index t (0 : Fin 1) * 128 + 1 * k.val = k.val; omega
  · show V c main_arg7 (((cfg2.win 2).blk t).view.emb (ix2 k q)) = _
    refine congrArg (V c main_arg7) ?_
    funext a; apply Fin.ext
    match a with
    | ⟨0, _⟩ => show win2_2.index t (0 : Fin 2) * 128 + 1 * k.val = k.val; omega
    | ⟨1, _⟩ => show win2_2.index t (1 : Fin 2) * 64 + 1 * q.val = q.val; omega

/-- An index of the output lies in point t's block iff each coordinate lies in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v57).slice (win2_3.rect t)).set ↔ _
  rw [View.set_slice_whole, Rect.mem_set_unit]
  exact Iff.rfl

/-- Row r of the output lies in the block of point r / 10000. -/
theorem tiled (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 10000 < cfg2.N := lt_of_lt_of_eq (by omega : (i 0).val / 10000 < 10) N_2.symm
  refine ⟨⟨(i 0).val / 10000, hN⟩, flush2_3 _, ?_⟩
  obtain ⟨e00, e01, e10, e20, e21, e30, e31⟩ := blockIndex ⟨(i 0).val / 10000, hN⟩
  rw [mem_block]
  intro a
  match a with
  | ⟨0, _⟩ => show win2_3.index ⟨(i 0).val / 10000, hN⟩ (0 : Fin 2) * 10000 ≤ (i 0).val ∧ (i 0).val < win2_3.index ⟨(i 0).val / 10000, hN⟩ (0 : Fin 2) * 10000 + 10000; simp only [] at e30; omega
  | ⟨1, _⟩ => show win2_3.index ⟨(i 0).val / 10000, hN⟩ (1 : Fin 2) * 64 ≤ (i 1).val ∧ (i 1).val < win2_3.index ⟨(i 0).val / 10000, hN⟩ (1 : Fin 2) * 64 + 64; omega

/-- After the region the output array is the dense part of the arrays the region found. -/
theorem array : (dat2 V c).arrAt 3 cfg2.N = dense (V c main_v56) (V c main_arg6) (V c main_arg7) :=
  (dat2 V c).arrAt_eq_of_cover 3 _ (fun t _ => writeback V c t) tiled

end Cert.KernelIdeal.Layer3

end
-- ==== Proof.Layer4.lean ====
/-
  The last layer's bias, a + b3, tiled over rows.

  Point t of the region's ten takes rows 10000·t … 10000·t + 9999 of the aggregated 100000 × 64 array a and adds
  the bias to every row: entry (p, q) of what it writes back is a(10000·t + p, q) + b3(q), which is entry
  (10000·t + p, q) of the reference's a plus the bias broadcast over all the rows. The blocks tile the output, so the
  output array is that sum.
-/
import proofs.«116855_j24567212933213_1_alg».proof.Proof.Gen.KernelIdeal.Frame
import proofs.«116855_j24567212933213_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Layer4

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a; rfl

/-- The sum on whole arrays, as the reference spells it: the bias broadcast to a row and then over the rows, added. -/
def biased (a : FVec Ideal Cert.ReferenceIdeal.S100000x64 .f32) (b : FVec Ideal Cert.ReferenceIdeal.S64 .f32) :
    FVec Ideal Cert.ReferenceIdeal.S100000x64 .f32 :=
  addf a (Cert.ReferenceIdeal.Read.val_main_v80 (F := Ideal) b)

/-- The reference's stage after the last bias is the sum on its stage after the third aggregation. -/
theorem stage_eq (x0 x1 x3 x4 x5 x6 x7 x8) :
    Cert.ReferenceIdeal.Read.val_main_v81 (F := Ideal) x0 x1 x3 x4 x5 x6 x7 x8
      = biased (Cert.ReferenceIdeal.Read.val_main_v78 (F := Ideal) x0 x1 x3 x4 x5 x6 x7) x8 := rfl

/-- The bias broadcast over the rows, read at (P, q), is the bias at q. -/
theorem bias_at (b : FVec Ideal Cert.ReferenceIdeal.S64 .f32) (P : Fin 100000) (q : Fin 64) :
    Cert.ReferenceIdeal.Read.val_main_v80 (F := Ideal) b (ix2 P q) = b (ix1 q) := by
  rw [Cert.ReferenceIdeal.Read.val_main_v80_apply, Cert.ReferenceIdeal.Read.val_main_v79_apply]
  exact congrArg b (funext fun a => match a with | ⟨0, _⟩ => rfl)

/-- Entry (p, q) of what a point computes, when row p of its block of a is row P of a and its bias block is the bias,
    is entry (P, q) of the sum on the whole arrays. -/
theorem sum_entry (x0 : FVec Ideal S10000x64 .f32) (x1 : FVec Ideal S64 .f32)
    (a : FVec Ideal Cert.ReferenceIdeal.S100000x64 .f32) (b : FVec Ideal Cert.ReferenceIdeal.S64 .f32)
    (P : Fin 100000) (p : Fin 10000) (q : Fin 64)
    (hx : x0 (ix2 p q) = a (ix2 P q)) (hb : x1 (ix1 q) = b (ix1 q)) :
    k3_pay1 x0 x1 (ix2 p q) = biased a b (ix2 P q) := by
  show addf (shapeCast S10000x64 x0 shapeCasts_S10000x64_S10000x64)
      (broadcastTo S10000x64 (shapeCast S1x64 x1 shapeCasts_S64_S1x64) broadcasts_S1x64_S10000x64) (ix2 p q)
    = addf a (Cert.ReferenceIdeal.Read.val_main_v80 (F := Ideal) b) (ix2 P q)
  rw [addf_apply, addf_apply, bias_at, shapeCast_self, broadcastTo_1b_ab_apply, shapeCast_a_1a_apply, hx, hb]

/-- The block indices at point t. -/
theorem blockIndex : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b)) (c : Dev nD)

/-- What point t writes back is block t of the sum on the arrays the region found. -/
theorem writeback (t : Fin cfg3.N) :
    (dat3 V c).flushed 2 t = ((cfg3.win 2).blk t).view.read (Elt Ideal) (biased (V c main_v70) (V c main_arg8)) := by
  show (cfg3.win 2).cut (grid3.coords t) ((dat3 V c).after 2 t) = _
  rw [after3_2]
  unfold out3_2
  rw [View.canon_unit_zero origin2]
  simp only [View.ld_unit_zero (S := S10000x64) origin2, View.ld_unit_zero (S := S64) origin1]
  funext j
  obtain ⟨e00, e01, e10, e20, e21⟩ := blockIndex t
  have ht : t.val < 10 := lt_of_lt_of_eq t.isLt N_3
  obtain ⟨p, q, rfl⟩ : ∃ (p : Fin 10000) (q : Fin 64), j = ix2 p q := ⟨j 0, j 1, eq_ix2 j⟩
  show k3_pay1 (iblk3 V c 0 t) (iblk3 V c 1 t) (ix2 p q)
    = biased (V c main_v70) (V c main_arg8) (((cfg3.win 2).blk t).view.emb (ix2 p q))
  have hP : t.val * 10000 + p.val < 100000 := by have := p.isLt; omega
  have hemb : ((cfg3.win 2).blk t).view.emb (ix2 p q) = ix2 (⟨t.val * 10000 + p.val, hP⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  refine sum_entry (iblk3 V c 0 t) (iblk3 V c 1 t) (V c main_v70) (V c main_arg8) ⟨t.val * 10000 + p.val, hP⟩ p q ?_ ?_
  · show V c main_v70 (((cfg3.win 0).blk t).view.emb (ix2 p q)) = _
    refine congrArg (V c main_v70) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_arg8 (((cfg3.win 1).blk t).view.emb (ix1 q)) = _
    refine congrArg (V c main_arg8) ?_
    funext a; apply Fin.ext
    match a with
    | ⟨0, _⟩ => show win3_1.index t (0 : Fin 1) * 64 + 1 * q.val = q.val; omega

/-- An index of the output lies in point t's block iff each coordinate lies in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v71).slice (win3_2.rect t)).set ↔ _
  rw [View.set_slice_whole, Rect.mem_set_unit]
  exact Iff.rfl

/-- Row r of the output lies in the block of point r / 10000. -/
theorem tiled (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := lt_of_lt_of_eq (by omega : (i 0).val / 10000 < 10) N_3.symm
  refine ⟨⟨(i 0).val / 10000, hN⟩, flush3_2 _, ?_⟩
  obtain ⟨e00, e01, e10, e20, e21⟩ := blockIndex ⟨(i 0).val / 10000, hN⟩
  rw [mem_block]
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; simp only [] at e20; omega
  | ⟨1, _⟩ => show win3_2.index ⟨(i 0).val / 10000, hN⟩ (1 : Fin 2) * 64 ≤ (i 1).val ∧ (i 1).val < win3_2.index ⟨(i 0).val / 10000, hN⟩ (1 : Fin 2) * 64 + 64; omega

/-- After the region the output array is the sum on the arrays the region found. -/
theorem array : (dat3 V c).arrAt 2 cfg3.N = biased (V c main_v70) (V c main_arg8) :=
  (dat3 V c).arrAt_eq_of_cover 2 _ (fun t _ => writeback V c t) tiled

end Cert.KernelIdeal.Layer4

end
-- ==== Proof.Boundaries.lean ====
/-
  The kernel's buffers at the boundaries between its segments are the reference's stages.

  Write x, e, g, W1, b1, W2, b2, W3, b3, Wlin, blin for the eleven argument arrays. The kernel's @main alternates
  stretches of host operations with four regions; between them every buffer has definite contents (the boundary
  contents W1 … W9). Walking the boundaries in order:
    after the first stretch   the edge lists and the edge weights are the reference's, functions of e alone;
    after region 0            its output is x · W1 (the row-tiled product);
    after the second stretch  the first aggregation of x · W1;
    after region 1            relu(that + b1) · W2;
    after the third stretch   the second aggregation;
    after region 2            relu(that + b2) · W3;
    after the fourth stretch  the third aggregation;
    after region 3            that + b3;
    after the last stretch    the pooled mean times Wlin plus blin: the reference's result.
  A buffer that a region does not have among its arrays and that a stretch does not write is carried unchanged, which is
  how the edge lists, the edge weights and the later layers' weights reach the places where they are read.
-/
import proofs.«116855_j24567212933213_1_alg».proof.Proof.Gen.KernelIdeal.Frame
import proofs.«116855_j24567212933213_1_alg».proof.Proof.Gen.ReferenceIdeal.Read
import proofs.«116855_j24567212933213_1_alg».proof.Proof.HostLines
import proofs.«116855_j24567212933213_1_alg».proof.Proof.Layer1
import proofs.«116855_j24567212933213_1_alg».proof.Proof.Layer2
import proofs.«116855_j24567212933213_1_alg».proof.Proof.Layer3
import proofs.«116855_j24567212933213_1_alg».proof.Proof.Layer4

set_option maxRecDepth 16384

noncomputable section

namespace Cert.KernelIdeal.Boundaries

open Cert.KernelIdeal Cert.KernelIdeal.Gen Cert.KernelIdeal.HostLines
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers carried unchanged from the first boundary -/

theorem at2 {r : Ref sig .tc} (h0 : ∀ w, Pipeline.arrRef spec0 w ≠ r) :
    W2 m ρ c (Proc.devRef .tc r) = W1 m ρ c (Proc.devRef .tc r) := W2_of_ne m ρ c r h0

theorem at3 {r : Ref sig .tc} (h0 : ∀ w, Pipeline.arrRef spec0 w ≠ r) (h1 : r ∉ written1) :
    W3 m ρ c (Proc.devRef .tc r) = W1 m ρ c (Proc.devRef .tc r) :=
  (keep1 (W2 m ρ c) h1).trans (at2 m ρ c h0)

theorem at4 {r : Ref sig .tc} (h0 : ∀ w, Pipeline.arrRef spec0 w ≠ r) (h1 : r ∉ written1) (h2 : ∀ w, Pipeline.arrRef spec1 w ≠ r) :
    W4 m ρ c (Proc.devRef .tc r) = W1 m ρ c (Proc.devRef .tc r) :=
  (W4_of_ne m ρ c r h2).trans (at3 m ρ c h0 h1)

theorem at5 {r : Ref sig .tc} (h0 : ∀ w, Pipeline.arrRef spec0 w ≠ r) (h1 : r ∉ written1) (h2 : ∀ w, Pipeline.arrRef spec1 w ≠ r)
    (h3 : r ∉ written2) : W5 m ρ c (Proc.devRef .tc r) = W1 m ρ c (Proc.devRef .tc r) :=
  (keep2 (W4 m ρ c) h3).trans (at4 m ρ c h0 h1 h2)

theorem at6 {r : Ref sig .tc} (h0 : ∀ w, Pipeline.arrRef spec0 w ≠ r) (h1 : r ∉ written1) (h2 : ∀ w, Pipeline.arrRef spec1 w ≠ r)
    (h3 : r ∉ written2) (h4 : ∀ w, Pipeline.arrRef spec2 w ≠ r) : W6 m ρ c (Proc.devRef .tc r) = W1 m ρ c (Proc.devRef .tc r) :=
  (W6_of_ne m ρ c r h4).trans (at5 m ρ c h0 h1 h2 h3)

theorem at7 {r : Ref sig .tc} (h0 : ∀ w, Pipeline.arrRef spec0 w ≠ r) (h1 : r ∉ written1) (h2 : ∀ w, Pipeline.arrRef spec1 w ≠ r)
    (h3 : r ∉ written2) (h4 : ∀ w, Pipeline.arrRef spec2 w ≠ r) (h5 : r ∉ written3) :
    W7 m ρ c (Proc.devRef .tc r) = W1 m ρ c (Proc.devRef .tc r) :=
  (keep3 (W6 m ρ c) h5).trans (at6 m ρ c h0 h1 h2 h3 h4)

theorem at8 {r : Ref sig .tc} (h0 : ∀ w, Pipeline.arrRef spec0 w ≠ r) (h1 : r ∉ written1) (h2 : ∀ w, Pipeline.arrRef spec1 w ≠ r)
    (h3 : r ∉ written2) (h4 : ∀ w, Pipeline.arrRef spec2 w ≠ r) (h5 : r ∉ written3) (h6 : ∀ w, Pipeline.arrRef spec3 w ≠ r) :
    W8 m ρ c (Proc.devRef .tc r) = W1 m ρ c (Proc.devRef .tc r) :=
  (W8_of_ne m ρ c r h6).trans (at7 m ρ c h0 h1 h2 h3 h4 h5)

/-! ## The first boundary: the arguments as launched, and the edge lists and weights -/

theorem arg0_1 : W1 m ρ c (Proc.devRef .tc main_arg0) = (m ((c.tc : Thread nD τ).loc main_arg0)) := keep0 (W0 m ρ c) (by decide)
theorem arg2_1 : W1 m ρ c (Proc.devRef .tc main_arg2) = (m ((c.tc : Thread nD τ).loc main_arg2)) := keep0 (W0 m ρ c) (by decide)
theorem arg3_1 : W1 m ρ c (Proc.devRef .tc main_arg3) = (m ((c.tc : Thread nD τ).loc main_arg3)) := keep0 (W0 m ρ c) (by decide)
theorem arg4_1 : W1 m ρ c (Proc.devRef .tc main_arg4) = (m ((c.tc : Thread nD τ).loc main_arg4)) := keep0 (W0 m ρ c) (by decide)
theorem arg5_1 : W1 m ρ c (Proc.devRef .tc main_arg5) = (m ((c.tc : Thread nD τ).loc main_arg5)) := keep0 (W0 m ρ c) (by decide)
theorem arg6_1 : W1 m ρ c (Proc.devRef .tc main_arg6) = (m ((c.tc : Thread nD τ).loc main_arg6)) := keep0 (W0 m ρ c) (by decide)
theorem arg7_1 : W1 m ρ c (Proc.devRef .tc main_arg7) = (m ((c.tc : Thread nD τ).loc main_arg7)) := keep0 (W0 m ρ c) (by decide)
theorem arg8_1 : W1 m ρ c (Proc.devRef .tc main_arg8) = (m ((c.tc : Thread nD τ).loc main_arg8)) := keep0 (W0 m ρ c) (by decide)
theorem arg9_1 : W1 m ρ c (Proc.devRef .tc main_arg9) = (m ((c.tc : Thread nD τ).loc main_arg9)) := keep0 (W0 m ρ c) (by decide)
theorem arg10_1 : W1 m ρ c (Proc.devRef .tc main_arg10) = (m ((c.tc : Thread nD τ).loc main_arg10)) := keep0 (W0 m ρ c) (by decide)

theorem src_1 : W1 m ρ c (Proc.devRef .tc main_v3) = Cert.ReferenceIdeal.Read.val_main_v3 (F := Ideal) (m ((c.tc : Thread nD τ).loc main_arg1)) := line0_src (W0 m ρ c)
theorem dst_1 : W1 m ρ c (Proc.devRef .tc main_v6) = Cert.ReferenceIdeal.Read.val_main_v6 (F := Ideal) (m ((c.tc : Thread nD τ).loc main_arg1)) := line0_dst (W0 m ρ c)
theorem norm_1 : W1 m ρ c (Proc.devRef .tc main_v28) = Cert.ReferenceIdeal.Read.val_main_v28 (F := Ideal) (m ((c.tc : Thread nD τ).loc main_arg1)) := line0_norm (W0 m ρ c)

/-! ## Layer one -/

/-- Region 0 leaves x · W1. -/
theorem product1 : W2 m ρ c (Proc.devRef .tc main_v29) = Cert.ReferenceIdeal.Read.val_main_v29 (F := Ideal) (m ((c.tc : Thread nD τ).loc main_arg0)) (m ((c.tc : Thread nD τ).loc main_arg3)) := by
  refine (W2_arr m ρ c 2).trans ((Layer1.array (V1 m ρ) c).trans ?_)
  rw [show V1 m ρ c main_arg0 = (m ((c.tc : Thread nD τ).loc main_arg0)) from arg0_1 m ρ c, show V1 m ρ c main_arg3 = (m ((c.tc : Thread nD τ).loc main_arg3)) from arg3_1 m ρ c]

/-- The second stretch leaves its aggregation. -/
theorem aggregate1 : W3 m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg3)) :=
  line1 (W2 m ρ c) _ _ _ (product1 m ρ c) ((at2 m ρ c (by decide)).trans (src_1 m ρ c)) ((at2 m ρ c (by decide)).trans (dst_1 m ρ c))
    ((at2 m ρ c (by decide)).trans (norm_1 m ρ c))

/-! ## Layer two -/

/-- Region 1 leaves relu(· + b1) · W2. -/
theorem product2 : W4 m ρ c (Proc.devRef .tc main_v43) = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W4_arr m ρ c 3).trans ((Layer2.array (V3 m ρ) c).trans ?_)
  rw [show V3 m ρ c main_v42 = _ from aggregate1 m ρ c,
    show V3 m ρ c main_arg4 = (m ((c.tc : Thread nD τ).loc main_arg4)) from (at3 m ρ c (by decide) (by decide)).trans (arg4_1 m ρ c),
    show V3 m ρ c main_arg5 = (m ((c.tc : Thread nD τ).loc main_arg5)) from (at3 m ρ c (by decide) (by decide)).trans (arg5_1 m ρ c)]
  exact (Layer2.stage_eq _ _ _ _ _).symm

/-- The third stretch leaves its aggregation. -/
theorem aggregate2 : W5 m ρ c (Proc.devRef .tc main_v56) = Cert.ReferenceIdeal.Read.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  line2 (W4 m ρ c) _ _ _ _ _ (product2 m ρ c) ((at4 m ρ c (by decide) (by decide) (by decide)).trans (src_1 m ρ c))
    ((at4 m ρ c (by decide) (by decide) (by decide)).trans (dst_1 m ρ c)) ((at4 m ρ c (by decide) (by decide) (by decide)).trans (norm_1 m ρ c))

/-! ## Layer three -/

/-- Region 2 leaves relu(· + b2) · W3. -/
theorem product3 : W6 m ρ c (Proc.devRef .tc main_v57) = Cert.ReferenceIdeal.Read.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 3).trans ((Layer3.array (V5 m ρ) c).trans ?_)
  rw [show V5 m ρ c main_v56 = _ from aggregate2 m ρ c,
    show V5 m ρ c main_arg6 = (m ((c.tc : Thread nD τ).loc main_arg6)) from (at5 m ρ c (by decide) (by decide) (by decide) (by decide)).trans (arg6_1 m ρ c),
    show V5 m ρ c main_arg7 = (m ((c.tc : Thread nD τ).loc main_arg7)) from (at5 m ρ c (by decide) (by decide) (by decide) (by decide)).trans (arg7_1 m ρ c)]
  exact (Layer3.stage_eq _ _ _ _ _ _ _).symm

/-- The fourth stretch leaves its aggregation. -/
theorem aggregate3 : W7 m ρ c (Proc.devRef .tc main_v70) = Cert.ReferenceIdeal.Read.val_main_v78 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  line3 (W6 m ρ c) _ _ _ _ _ _ _ (product3 m ρ c) ((at6 m ρ c (by decide) (by decide) (by decide) (by decide) (by decide)).trans (src_1 m ρ c))
    ((at6 m ρ c (by decide) (by decide) (by decide) (by decide) (by decide)).trans (dst_1 m ρ c)) ((at6 m ρ c (by decide) (by decide) (by decide) (by decide) (by decide)).trans (norm_1 m ρ c))

/-- Region 3 adds b3. -/
theorem biased3 : W8 m ρ c (Proc.devRef .tc main_v71) = Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 2).trans ((Layer4.array (V7 m ρ) c).trans ?_)
  rw [show V7 m ρ c main_v70 = _ from aggregate3 m ρ c,
    show V7 m ρ c main_arg8 = (m ((c.tc : Thread nD τ).loc main_arg8)) from (at7 m ρ c (by decide) (by decide) (by decide) (by decide) (by decide) (by decide)).trans (arg8_1 m ρ c)]
  exact (Layer4.stage_eq _ _ _ _ _ _ _ _).symm

/-! ## The result -/

/-- The last stretch pools by graph and applies the head: the result buffer ends at the reference's result, as a function of the
    launch contents of the eleven arguments. -/
theorem result : W9 m ρ c (Proc.devRef .tc main_v87)
    = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  line4 (W8 m ρ c) _ _ _ _ _ _ _ _ _ _ _ (biased3 m ρ c)
    ((at8 m ρ c (by decide) (by decide) (by decide) (by decide) (by decide) (by decide) (by decide)).trans (arg2_1 m ρ c))
    ((at8 m ρ c (by decide) (by decide) (by decide) (by decide) (by decide) (by decide) (by decide)).trans (arg9_1 m ρ c))
    ((at8 m ρ c (by decide) (by decide) (by decide) (by decide) (by decide) (by decide) (by decide)).trans (arg10_1 m ρ c))

end Cert.KernelIdeal.Boundaries

end
-- ==== Proof.lean ====
/-
  The three-layer graph convolution, the kernel against its reference.

  Both programs compute, from node features x, an edge list e, graph ids g and the weights of three layers and a
  linear head, the same chain: the edge lists with self loops and the symmetric degree weights; per layer the
  product with the layer's weight, the weighted gather along the sources and the scatter-add along the targets, the
  bias and (for the first two layers) the maximum with zero; then the mean over each graph's nodes, the head's
  product and its bias. The kernel computes the three products (the second and third fused with the preceding bias
  and maximum) and the last bias add in four regions tiled over blocks of 10000 rows, and everything else by the very
  host operations the reference uses. On the extended reals a row-tiled product is the whole product entry by entry,
  the same sum term by term, so no finiteness of the inputs is used anywhere: the precondition is never opened.

  The frames of the two kernel programs are the generated ones; the reference's frame is its generated run with the
  result dropped. The idealization rewrote nothing, so it is preserved trivially. For the value claim the kernel's run
  is read at its result buffer (Proof/KernelRun.lean), that buffer's last contents are identified with the reference's
  last stage by walking the boundaries between the segments (Proof/Boundaries.lean, over Proof/HostLines.lean for the host
  stretches and Proof/Layer1 … Layer4.lean for the regions), and the reference's run ends at that stage of its own
  arguments, which agree with the kernel's.
-/
import proofs.«116855_j24567212933213_1_alg».proof.Defs
import proofs.«116855_j24567212933213_1_alg».proof.Proof.Gen.Kernel
import proofs.«116855_j24567212933213_1_alg».proof.Proof.Gen.Kernel.Frame
import proofs.«116855_j24567212933213_1_alg».proof.Proof.Gen.KernelIdeal
import proofs.«116855_j24567212933213_1_alg».proof.Proof.Gen.KernelIdeal.Frame
import proofs.«116855_j24567212933213_1_alg».proof.Proof.Gen.ReferenceIdeal
import proofs.«116855_j24567212933213_1_alg».proof.Proof.Gen.ReferenceIdeal.Run
import proofs.«116855_j24567212933213_1_alg».proof.Proof.Gen.ReferenceIdeal.Read
import proofs.«116855_j24567212933213_1_alg».proof.Proof.Gen.Pre_finite_inputs
import proofs.«116855_j24567212933213_1_alg».proof.Proof.KernelRun
import proofs.«116855_j24567212933213_1_alg».proof.Proof.Boundaries
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the reference's last stage of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Boundaries.result m ρ c), (h c).2⟩)
      (Cert.KernelIdeal.Final.run_result m ρ)
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9, a10⟩ := hagree c
    rw [(h c).1, Cert.ReferenceIdeal.Read.val_main_v97_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
